-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S256x4096 : Shape := ⟨2, ![256, 4096]⟩

abbrev nBuf : Space → Nat
  | .hbm => 6
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8192x4096, .f32⟩
  | .hbm, ⟨3, _⟩ => ⟨S4096x4096, .bf16⟩
  | .hbm, ⟨4, _⟩ => ⟨S8192x4096, .f32⟩
  | .hbm, ⟨5, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x4096, .bf16⟩
  | .local _ .vmem, ⟨3, _⟩ => ⟨S256x4096, .f32⟩
  | .local _ .vmem, ⟨4, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x2048x4096_S8192x4096 : S4x2048x4096.ShapeCasts S8192x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  shapeCasts_S8192x4096_S4x2048x4096 : S8192x4096.ShapeCasts S4x2048x4096
  dot_S256x4096_S4096x4096_S256x4096_1_1_0_0_n_n_wf : DotDims.WF S256x4096 S4096x4096 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)

variable [Facts₀]

def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Linear.lean ====
/-
  The function both programs compute, over the extended reals: a dense linear layer without bias,
      y[b, s, o] = ∑ₖ x[b, s, k] · w[o, k]        (x : [4, 2048, 4096], w : [4096, 4096], k < 4096),
  every row of `x` against every row of `w`.  One side forms it on the flattened rows, (b, s) ↦ b · 2048 + s, as an
  [8192, 4096] matrix whose entry (r, o) is ∑ₖ a[r, k] · w[o, k], and folds the result back to [4, 2048, 4096]; the other
  side forms it on the three-axis array directly.  The two agree because flattening and unflattening are the same
  row-major re-reading of positions: row r = b · 2048 + s of the flat matrix IS row (b, s) of the array, entry by entry,
  so the sum over k is termwise the same.  No law of arithmetic is used beyond that: the products and the sums are
  literally the same terms, and nothing here asks the entries to be finite.
-/
import Idealize.ShloMosaic.PureOps.Ideal
import Idealize.ShloMosaic.Lib.ValueIdx
import Idealize.ShloMosaic.Lib.Pipeline.Value

noncomputable section

namespace Cert.Linear

open Idealize.ShloMosaic Idealize.ShloMosaic.ValueIdx

/-- The batched activations' shape, [4, 2048, 4096]. -/
abbrev Sx : Shape := ⟨3, ![4, 2048, 4096]⟩
/-- The weight's shape, [4096, 4096] (output feature, input feature). -/
abbrev Sw : Shape := ⟨2, ![4096, 4096]⟩
/-- The flattened activations' shape, [8192, 4096]: row `b · 2048 + s`. -/
abbrev Sflat : Shape := ⟨2, ![8192, 4096]⟩

/-- Rows against rows on the flat matrix: entry (r, o) is `∑ₖ a[r, k] · w[o, k]`. -/
def rowsDot (a : Sflat.Idx → EReal) (w : Sw.Idx → EReal) : Sflat.Idx → EReal :=
  fun j => ∑ k : Fin 4096, a (ix2 (j 0) k) * w (ix2 (j 1) k)

/-- The linear layer on the batched array: entry (b, s, o) is `∑ₖ x[b, s, k] · w[o, k]`. -/
def linear (x : Sx.Idx → EReal) (w : Sw.Idx → EReal) : Sx.Idx → EReal :=
  fun i => ∑ k : Fin 4096, x (ix3 (i 0) (i 1) k) * w (ix2 (i 2) k)

/-- The flat row of a batched position: `b · 2048 + s`, below 8192. -/
def flatRow (b : Fin 4) (s : Fin 2048) : Fin 8192 := ⟨b.val * 2048 + s.val, by have := b.isLt; have := s.isLt; omega⟩

/-- The flattened array at (b · 2048 + s, k) is the batched array at (b, s, k): the same row-major position. -/
theorem flatten_apply {α : Type} (x : Sx.Idx → α) (h : Sx.ShapeCasts Sflat) (b : Fin 4) (s : Fin 2048) (k : Fin 4096) :
    shapeCast Sflat x h (ix2 (flatRow b s) k) = x (ix3 b s k) := by
  refine shapeCast_apply x h _ _ ?_
  rw [Shape.rowMajor_val_three, Shape.rowMajor_val_two]
  rfl

/-- The flat matrix folded back, at (b, s, o), is the flat matrix at (b · 2048 + s, o). -/
theorem unflatten_apply {α : Type} (y : Sflat.Idx → α) (h : Sflat.ShapeCasts Sx) (i : Sx.Idx) :
    shapeCast Sx y h i = y (ix2 (flatRow (i 0) (i 1)) (i 2)) := by
  refine shapeCast_apply y h _ _ ?_
  rw [Shape.rowMajor_val_three, Shape.rowMajor_val_two]
  rfl

/-- Flatten, multiply rows against rows, fold back: the linear layer on the batched array. -/
theorem unflatten_rowsDot_flatten (x : Sx.Idx → EReal) (w : Sw.Idx → EReal) (h₁ : Sx.ShapeCasts Sflat)
    (h₂ : Sflat.ShapeCasts Sx) :
    shapeCast Sx (rowsDot (shapeCast Sflat x h₁) w) h₂ = linear x w := by
  funext i
  rw [unflatten_apply]
  unfold rowsDot linear
  refine Finset.sum_congr rfl fun k _ => ?_
  exact congrArg (· * w (ix2 (i 2) k)) (flatten_apply x h₁ (i 0) (i 1) k)

end Cert.Linear

end
-- ==== Proof.Reference.lean ====
/-
  The reference's one operation, a contraction of the activations' last axis against the weight's last axis, read at
  an output position (b, s, o) is the sum over k of x[b, s, k] · w[o, k]: the linear layer of `Linear.lean`, term by term.
-/
import proofs.«130154_j27041114096128_2_alg».proof.Proof.Gen.ReferenceIdeal.Read
import proofs.«130154_j27041114096128_2_alg».proof.Proof.Linear

noncomputable section

namespace Cert.Linear

open Idealize.ShloMosaic Idealize.ShloMosaic.ValueIdx Cert.ReferenceIdeal Cert.ReferenceIdeal.Read

/-- The left operand's position for output (b, s, o) and summand k is (b, s, k). -/
theorem ref_left (i : Sx.Idx) (k : Fin 4096) : lidx_main_v0 i k = ix3 (i 0) (i 1) k :=
  funext fun a => Fin.ext (by match a with | ⟨0, _⟩ => rfl | ⟨1, _⟩ => rfl | ⟨2, _⟩ => rfl)

/-- The right operand's position for output (b, s, o) and summand k is (o, k). -/
theorem ref_right (i : Sx.Idx) (k : Fin 4096) : ridx_main_v0 i k = ix2 (i 2) k :=
  funext fun a => Fin.ext (by match a with | ⟨0, _⟩ => rfl | ⟨1, _⟩ => rfl)

/-- The reference's result, as a function of its two arguments over the extended reals, is the linear layer. -/
theorem reference_eq (x : Sx.Idx → EReal) (w : Sw.Idx → EReal) : val_main_v0 (F := Ideal) x w = linear x w := by
  funext i
  rw [val_main_v0_apply]
  unfold linear
  refine Finset.sum_congr rfl fun k _ => ?_
  rw [ref_left, ref_right]
  rfl

end Cert.Linear

end
-- ==== Proof.HostStages.lean ====
/-
  The host lines around the region.  Before it: the activations are flattened to [8192, 4096] (the same elements in
  row-major order) and the weight is narrowed to bf16, which over the extended reals is the weight itself.  After it:
  the region's [8192, 4096] output array is folded back to [4, 2048, 4096], again the same elements in row-major order.
-/
import proofs.«130154_j27041114096128_2_alg».proof.Proof.Gen.KernelIdeal.Frame
import Idealize.ShloMosaic.Lib.StableHlo.Run
import Idealize.ShloMosaic.PureOps.Ideal
import Idealize.ShloMosaic.Lib.Pipeline.Value

noncomputable section

namespace Cert.Linear

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The region's first input array is the activations, flattened. -/
theorem entry_rows (c : Dev nD) :
    (V m c main_v0 : S8192x4096.Idx → EReal)
      = shapeCast S8192x4096 (m ((c : Thread nD τ).loc main_arg0)) shapeCasts_S4x2048x4096_S8192x4096 := by
  show StableHlo.after hostOps0 (fun b => m (c, b)) (Proc.devRef .tc main_v0) = _
  after_results
  rfl

/-- The region's second input array is the weight (its narrowing to bf16 changes no extended real). -/
theorem entry_weight (c : Dev nD) :
    (V m c main_v1 : S4096x4096.Idx → EReal) = m ((c : Thread nD τ).loc main_arg1) := by
  show StableHlo.after hostOps0 (fun b => m (c, b)) (Proc.devRef .tc main_v1) = _
  after_results
  rfl

/-- The program's result is the region's output array as it stands after the last write-back, folded back to
    [4, 2048, 4096]. -/
theorem result_fold (c : Dev nD) :
    (Pipeline.afterTail₀ cfgs (dats m) 0 (V0 m) [hostOps1] c main_v3 : S4x2048x4096.Idx → EReal)
      = shapeCast S4x2048x4096 ((dats m 0 c).arrAt 2 cfg0.N) shapeCasts_S8192x4096_S4x2048x4096 := by
  unfold Pipeline.afterTail₀
  show StableHlo.after hostOps1 _ (Proc.devRef .tc main_v3) = _
  after_results
  rw [Pipeline.withArrays_arr spec0 launch0.win.arr_inj c _ _ 2]
  rfl

end Cert.Linear

end
-- ==== Proof.BlockProduct.lean ====
/-
  What the kernel body stores for one block of 256 flat rows: its loaded rows, narrowed to bf16 — which changes nothing
  over the extended reals —, against all 4096 rows of the resident weight, accumulated from zero.  Read at (p, o) inside
  the block it is the sum over k of a[p, k] · w[o, k]: the contraction runs over the second axis of both operands, so the
  left factor sits at (p, k) and the right one at (o, k).
-/
import proofs.«130154_j27041114096128_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.Linear

open Idealize.ShloMosaic Idealize.ShloMosaic.ValueIdx Cert.KernelIdeal Cert.KernelIdeal.Gen

/-- The left operand's row coordinate is the output's row. -/
theorem blk_left_row (j : S256x4096.Idx) (q : dot_S256x4096_S4096x4096_S256x4096_1_1_0_0_n_n.contr.Idx) :
    (dot_S256x4096_S4096x4096_S256x4096_1_1_0_0_n_n.lhsIdx j q 0).val = (j 0).val := by
  unfold DotDims.lhsIdx
  rw [dif_neg (show ¬(0 : Fin S256x4096.rank) ∈ dot_S256x4096_S4096x4096_S256x4096_1_1_0_0_n_n.lhsBatch by decide),
    dif_pos (show (0 : Fin S256x4096.rank) ∈ dot_S256x4096_S4096x4096_S256x4096_1_1_0_0_n_n.lhsNonContracting by decide)]
  rfl

/-- The left operand's column coordinate is the summation index. -/
theorem blk_left_col (j : S256x4096.Idx) (q : dot_S256x4096_S4096x4096_S256x4096_1_1_0_0_n_n.contr.Idx) :
    (dot_S256x4096_S4096x4096_S256x4096_1_1_0_0_n_n.lhsIdx j q 1).val = (q ⟨0, by decide⟩).val :=
  dot_S256x4096_S4096x4096_S256x4096_1_1_0_0_n_n.lhsIdx_val_of_single rfl j q

/-- The right operand's row coordinate is the output's column. -/
theorem blk_right_row (j : S256x4096.Idx) (q : dot_S256x4096_S4096x4096_S256x4096_1_1_0_0_n_n.contr.Idx) :
    (dot_S256x4096_S4096x4096_S256x4096_1_1_0_0_n_n.rhsIdx j q 0).val = (j 1).val := by
  unfold DotDims.rhsIdx
  rw [dif_neg (show ¬(0 : Fin S4096x4096.rank) ∈ dot_S256x4096_S4096x4096_S256x4096_1_1_0_0_n_n.rhsBatch by decide),
    dif_pos (show (0 : Fin S4096x4096.rank) ∈ dot_S256x4096_S4096x4096_S256x4096_1_1_0_0_n_n.rhsNonContracting by decide)]
  rfl

/-- The right operand's column coordinate is the summation index. -/
theorem blk_right_col (j : S256x4096.Idx) (q : dot_S256x4096_S4096x4096_S256x4096_1_1_0_0_n_n.contr.Idx) :
    (dot_S256x4096_S4096x4096_S256x4096_1_1_0_0_n_n.rhsIdx j q 1).val = (q ⟨0, by decide⟩).val :=
  dot_S256x4096_S4096x4096_S256x4096_1_1_0_0_n_n.rhsIdx_val_of_single rfl j q

/-- The body's stored value at (p, o): the sum over k of the loaded rows at (p, k) times the weight at (o, k). -/
theorem block_product (a : Vec Ideal S256x4096 .f32) (w : Vec Ideal S4096x4096 .bf16) (j : S256x4096.Idx) :
    k0_pay1 (F := Ideal) a w j = ∑ k : Fin 4096, a (ix2 (j 0) k) * w (ix2 (j 1) k) := by
  unfold k0_pay1
  refine (Ideal.matmul_constant_zero_apply dot_S256x4096_S4096x4096_S256x4096_1_1_0_0_n_n none _ _ j).trans ?_
  rw [← Equiv.sum_comp (contrEquiv1 dot_S256x4096_S4096x4096_S256x4096_1_1_0_0_n_n 4096 rfl rfl).symm]
  refine Finset.sum_congr rfl fun k _ => ?_
  have hk := contrEquiv1_symm_val dot_S256x4096_S4096x4096_S256x4096_1_1_0_0_n_n 4096 rfl rfl k
  have el : dot_S256x4096_S4096x4096_S256x4096_1_1_0_0_n_n.lhsIdx j
      ((contrEquiv1 dot_S256x4096_S4096x4096_S256x4096_1_1_0_0_n_n 4096 rfl rfl).symm k) = ix2 (j 0) k :=
    funext fun d => Fin.ext (by
      match d with
      | ⟨0, _⟩ => exact blk_left_row _ _
      | ⟨1, _⟩ => exact (blk_left_col _ _).trans hk)
  have er : dot_S256x4096_S4096x4096_S256x4096_1_1_0_0_n_n.rhsIdx j
      ((contrEquiv1 dot_S256x4096_S4096x4096_S256x4096_1_1_0_0_n_n 4096 rfl rfl).symm k) = ix2 (j 1) k :=
    funext fun d => Fin.ext (by
      match d with
      | ⟨0, _⟩ => exact blk_right_row _ _
      | ⟨1, _⟩ => exact (blk_right_col _ _).trans hk)
  rw [el, er, shapeCast_self, shapeCast_self]
  rfl

end Cert.Linear

end
-- ==== Proof.Blocks.lean ====
/-
  From blocks to the array.  The grid has 32 points; point t works on flat rows 256·t … 256·t + 255: its first input
  block is those rows of the flattened activations, its second input block is the whole weight at every point, and it
  writes back those rows of the output array.  So what point t writes back is rows 256·t … 256·t + 255 of ONE matrix,
  the rows-against-rows product of the two arrays the region finds; the 32 row blocks tile the 8192 rows (row r lies in
  block r / 256), hence after the last write-back the output array IS that product.
-/
import proofs.«130154_j27041114096128_2_alg».proof.Proof.Gen.KernelIdeal.Frame
import proofs.«130154_j27041114096128_2_alg».proof.Proof.Linear
import proofs.«130154_j27041114096128_2_alg».proof.Proof.BlockProduct
import Idealize.ShloMosaic.Lib.Pipeline.Value

set_option maxRecDepth 16384

noncomputable section

namespace Cert.Linear

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (m : (ℓ : Loc nD τ sig) → Buf (Elt Ideal) ℓ)

/-- Every access of the body starts at the origin of its buffer. -/
theorem origin : (![0, 0] : Fin 2 → Nat) = fun _ => 0 := funext fun a => by fin_cases a <;> rfl

/-- The index maps over the 32 points: the activations' and the output's block is row block t, column block 0;
    the weight's block is always block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block product is a block of the whole product: if the loaded rows are row `i 0` of `A` at row `j 0`, and the
    loaded weight is `W`'s row `i 1` at row `j 1`, the stored value at `j` is the product of `A` and `W` at `i`. -/
theorem block_of_rowsDot (a : Vec Ideal S256x4096 .f32) (w : Vec Ideal S4096x4096 .bf16)
    (A : Sflat.Idx → EReal) (W : Sw.Idx → EReal) (j : S256x4096.Idx) (i : S8192x4096.Idx)
    (ha : ∀ k : Fin 4096, a (ix2 (j 0) k) = A (ix2 (i 0) k))
    (hw : ∀ k : Fin 4096, w (ix2 (j 1) k) = W (ix2 (i 1) k)) :
    k0_pay1 (F := Ideal) a w j = rowsDot A W i := by
  rw [block_product]
  unfold rowsDot
  exact Finset.sum_congr rfl fun k _ => by rw [ha k, hw k]

/-- What point t writes back is block t of the product of the two arrays the region finds. -/
theorem flushed_eq (c : Dev nD) (t : Fin cfg0.N) :
    (dats m 0 c).flushed 2 t
      = ((cfg0.win 2).blk t).view.read (Elt Ideal) (rowsDot (V m c main_v0) (V m c main_v1)) := by
  show (cfg0.win 2).cut (grid0.coords t) ((dats m 0 c).after 2 t) = _
  rw [after0_2]
  unfold out0_2
  rw [View.canon_unit_zero origin]
  simp only [View.ld_unit_zero (S := S256x4096) origin, View.ld_unit_zero (S := S4096x4096) origin]
  obtain ⟨e0, e1, e2, e3, e4, e5⟩ := block_index t
  funext j
  show k0_pay1 (F := Ideal) (iblk m c 0 t) (iblk m c 1 t) j
    = rowsDot (V m c main_v0) (V m c main_v1) (((cfg0.win 2).blk t).view.emb j)
  refine block_of_rowsDot (iblk m c 0 t) (iblk m c 1 t) (V m c main_v0) (V m c main_v1) j
    (((cfg0.win 2).blk t).view.emb j) ?_ ?_
  · intro k
    show V m c main_v0 (((cfg0.win 0).blk t).view.emb (ix2 (j 0) k))
      = V m c main_v0 (ix2 ((((cfg0.win 2).blk t).view.emb j) 0) k)
    refine congrArg (V m c main_v0) (funext fun a => Fin.ext ?_)
    match a with
    | ⟨0, _⟩ =>
      show win0_0.index t (0 : Fin 2) * 256 + 1 * (j 0).val = win0_2.index t (0 : Fin 2) * 256 + 1 * (j 0).val
      omega
    | ⟨1, _⟩ =>
      show win0_0.index t (1 : Fin 2) * 4096 + 1 * k.val = k.val
      omega
  · intro k
    show V m c main_v1 (((cfg0.win 1).blk t).view.emb (ix2 (j 1) k))
      = V m c main_v1 (ix2 ((((cfg0.win 2).blk t).view.emb j) 1) k)
    refine congrArg (V m c main_v1) (funext fun a => Fin.ext ?_)
    match a with
    | ⟨0, _⟩ =>
      show win0_1.index t (0 : Fin 2) * 4096 + 1 * (j 1).val = win0_2.index t (1 : Fin 2) * 4096 + 1 * (j 1).val
      omega
    | ⟨1, _⟩ =>
      show win0_1.index t (1 : Fin 2) * 4096 + 1 * k.val = k.val
      omega

/-- A position of the output array lies in point t's block iff each coordinate lies in the block's range on its axis. -/
theorem mem_block (t : Fin cfg0.N) (i : S8192x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v2).slice (win0_2.rect t)).set ↔ _
  rw [View.set_slice_whole, Rect.mem_set_unit]
  exact Iff.rfl

/-- Every position of the output array is written back by some point: row r by point r / 256. -/
theorem covered (i : S8192x4096.Idx) :
    ∃ t : Fin cfg0.N, (cfg0.win 2).flush t = true ∧ i ∈ ((cfg0.win 2).blk t).view.set := by
  have hi0 : (i 0).val < 8192 := idx2_lt0 i
  have hi1 : (i 1).val < 4096 := idx2_lt1 i
  have hN : cfg0.N = 32 := N_0
  have hlt : (i 0).val / 256 < cfg0.N := by rw [hN]; omega
  obtain ⟨-, -, -, -, e4, e5⟩ := block_index ⟨(i 0).val / 256, hlt⟩
  refine ⟨⟨(i 0).val / 256, hlt⟩, flush0_2 _, ?_⟩
  rw [mem_block]
  intro a
  match a with
  | ⟨0, _⟩ =>
    show win0_2.index ⟨(i 0).val / 256, hlt⟩ (0 : Fin 2) * 256 ≤ (i 0).val
      ∧ (i 0).val < win0_2.index ⟨(i 0).val / 256, hlt⟩ (0 : Fin 2) * 256 + 256
    have e4' : win0_2.index ⟨(i 0).val / 256, hlt⟩ (0 : Fin 2) = (i 0).val / 256 := e4
    omega
  | ⟨1, _⟩ =>
    show win0_2.index ⟨(i 0).val / 256, hlt⟩ (1 : Fin 2) * 4096 ≤ (i 1).val
      ∧ (i 1).val < win0_2.index ⟨(i 0).val / 256, hlt⟩ (1 : Fin 2) * 4096 + 4096
    omega

/-- The region's output array after the last write-back: the rows-against-rows product of the flattened activations
    and the weight as the region finds them. -/
theorem region_output (c : Dev nD) :
    (dats m 0 c).arrAt 2 cfg0.N = rowsDot (V m c main_v0) (V m c main_v1) :=
  (dats m 0 c).arrAt_eq_of_cover 2 _ (fun t _ => flushed_eq m c t) covered

end Cert.Linear

end
-- ==== Proof.KernelValue.lean ====
/-
  The kernel program's result over the extended reals.  The region's output array ends as the rows-against-rows product
  of the flattened activations and the weight (`Blocks.lean`); the line after the region folds it back to
  [4, 2048, 4096] (`HostStages.lean`); and flatten, multiply, fold back is the linear layer on the batched array
  (`Linear.lean`).  The two arguments are written by no line, so they end as they began.
-/
import proofs.«130154_j27041114096128_2_alg».proof.Proof.HostStages
import proofs.«130154_j27041114096128_2_alg».proof.Proof.Blocks

noncomputable section

namespace Cert.Linear

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- What the program's result buffer holds at the end: the linear layer of the two arguments. -/
theorem result_value (c : Dev nD) :
    (Pipeline.afterTail₀ cfgs (dats m) 0 (V0 m) [hostOps1] c main_v3 : S4x2048x4096.Idx → EReal)
      = linear (m ((c : Thread nD τ).loc main_arg0)) (m ((c : Thread nD τ).loc main_arg1)) := by
  refine (result_fold m c).trans ?_
  rw [region_output, entry_rows, entry_weight]
  exact unflatten_rowsDot_flatten _ _ _ _

/-- Every weakly fair execution of the kernel program terminates, faultless, with its result at the linear layer of
    the arguments and the arguments unchanged. -/
theorem kernel_run :
    θ_run defs (onTc (τ := τ) (main (F := Ideal))) ⟨m, fun _ => 0, ρ⟩ fun r => ∀ c : Dev nD,
      r.2.mem ((c.tc : Thread nD τ).loc main_v3)
          = linear (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result_value m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.Linear

end
-- ==== Proof.lean ====
/-
  A dense linear layer without bias, y[b, s, o] = ∑ₖ x[b, s, k] · w[o, k] with x : [4, 2048, 4096] and w : [4096, 4096],
  computed two ways that agree over the extended reals.

  The kernel program flattens x to [8192, 4096], narrows w to bf16, runs a 32-point grid whose point t multiplies flat
  rows 256·t … 256·t + 255 (narrowed to bf16 in the body) against every row of the resident weight, accumulating from
  zero, and folds the [8192, 4096] result back to [4, 2048, 4096].  The reference contracts the last axis of x against
  the last axis of w in one operation.

  Over the extended reals a change of float format is the identity, so both narrowings disappear; a block product from
  a zero accumulator is the plain sum of products; the 32 row blocks tile the flat rows, so the region's output is the
  rows-against-rows product of the flattened activations and the weight; and flattening then folding back only re-reads
  the same row-major positions.  Entry by entry both programs therefore form the SAME sum of the SAME products:
  no rearrangement of terms, no distributivity, no cancellation — so finiteness of the inputs is never used.

  The modules: `Linear` (the function, and the flatten / fold-back law), `Reference` (the reference is that function),
  `BlockProduct` (the body's stored value at an index), `HostStages` (the lines around the region), `Blocks` (from
  the points' blocks to the output array), `KernelValue` (the kernel program's run).  No operation of the kernel was rewritten
  for the reading over the extended reals, so there is nothing to preserve beyond the text itself.
-/
import proofs.«130154_j27041114096128_2_alg».proof.Defs
import proofs.«130154_j27041114096128_2_alg».proof.Proof.Gen.Kernel
import proofs.«130154_j27041114096128_2_alg».proof.Proof.Gen.Kernel.Skeleton
import proofs.«130154_j27041114096128_2_alg».proof.Proof.Gen.Kernel.Launch
import proofs.«130154_j27041114096128_2_alg».proof.Proof.Gen.Kernel.Points
import proofs.«130154_j27041114096128_2_alg».proof.Proof.Gen.Kernel.Frame
import proofs.«130154_j27041114096128_2_alg».proof.Proof.Gen.KernelIdeal
import proofs.«130154_j27041114096128_2_alg».proof.Proof.Gen.KernelIdeal.Skeleton
import proofs.«130154_j27041114096128_2_alg».proof.Proof.Gen.KernelIdeal.Launch
import proofs.«130154_j27041114096128_2_alg».proof.Proof.Gen.KernelIdeal.Points
import proofs.«130154_j27041114096128_2_alg».proof.Proof.Gen.KernelIdeal.Frame
import proofs.«130154_j27041114096128_2_alg».proof.Proof.Gen.ReferenceIdeal
import proofs.«130154_j27041114096128_2_alg».proof.Proof.Gen.ReferenceIdeal.Run
import proofs.«130154_j27041114096128_2_alg».proof.Proof.Gen.ReferenceIdeal.Read
import proofs.«130154_j27041114096128_2_alg».proof.Proof.Gen.Pre_finite_inputs
import proofs.«130154_j27041114096128_2_alg».proof.Proof.Reference
import proofs.«130154_j27041114096128_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program terminates, faultless, its arguments unchanged. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals: nothing to state. -/
theorem preserves : Cert.preserves_Kernel_KernelIdeal := trivial

/-- From memories agreeing on the arguments both programs end with the linear layer of those arguments: the kernel
    program by `Cert.Linear.kernel_run`, the reference because its one contraction is that function. -/
theorem algebraic : Cert.algebraic_KernelIdeal_ReferenceIdeal := by
  intro m ρ m' ρ' _ hagree
  refine ⟨fun c => Cert.Linear.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Linear.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v0_eq _ _).trans (Cert.Linear.reference_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
